-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S64x1 .f32) (main_arg11 : FVec F S1 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x64 .f32) (main_arg9 : FVec F S64 .f32) (main_arg10 : FVec F S64x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S800000 32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S64x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩
abbrev S1x1 : Shape := ⟨2, ![1, 1]⟩

abbrev nBuf : Space → Nat
  | .hbm => 120
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S1x64, .f32⟩
  | .hbm, ⟨106, _⟩ => ⟨S50000x64, .f32⟩
  | .hbm, ⟨107, _⟩ => ⟨S50000x1, .f32⟩
  | .hbm, ⟨108, _⟩ => ⟨S1x1, .f32⟩
  | .hbm, ⟨109, _⟩ => ⟨S50000x1, .f32⟩
  | .hbm, ⟨110, _⟩ => ⟨S50000x1, .f32⟩
  | .hbm, ⟨111, _⟩ => ⟨S50000, .f32⟩
  | .hbm, ⟨112, _⟩ => ⟨S50000, .f32⟩
  | .hbm, ⟨113, _⟩ => ⟨S50000, .f32⟩
  | .hbm, ⟨114, _⟩ => ⟨S_, .f32⟩
  | .hbm, ⟨115, _⟩ => ⟨S50000, .f32⟩
  | .hbm, ⟨116, _⟩ => ⟨S50000, .f32⟩
  | .hbm, ⟨117, _⟩ => ⟨S_, .f32⟩
  | .hbm, ⟨118, _⟩ => ⟨S50000, .f32⟩
  | .hbm, ⟨119, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_5 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_8 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S50000x64_S64x1_S50000x1_1_0_0_1_n_n_wf : DotDims.WF S50000x64 S64x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S50000, .f32⟩
  | 72 => ⟨S50000, .i1⟩
  | 73 => ⟨S_, .f32⟩
  | 74 => ⟨S50000, .f32⟩
  | 75 => ⟨S50000, .f32⟩
  | 76 => ⟨S50000, .f32⟩
  | 77 => ⟨S_, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000, .f32⟩
  | 120 => ⟨S50000, .i1⟩
  | 121 => ⟨S_, .f32⟩
  | 122 => ⟨S50000, .f32⟩
  | 123 => ⟨S50000, .f32⟩
  | 124 => ⟨S50000, .f32⟩
  | 125 => ⟨S_, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S_, .f32⟩
  | 5 => ⟨S50000, .f32⟩
  | 6 => ⟨S50000, .f32⟩
  | 7 => ⟨S50000, .f32⟩
  | 8 => ⟨S_, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x1, .f32⟩
  | 29 => ⟨S50000x128, .f32⟩
  | 30 => ⟨S50000x128, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x1, .f32⟩
  | 39 => ⟨S1x1, .f32⟩
  | 40 => ⟨S50000x1, .f32⟩
  | 41 => ⟨S50000x1, .f32⟩
  | 42 => ⟨S50000, .f32⟩
  | 43 => ⟨S50000, .f32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_5 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_8 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_cst : Ref sig .tc := ⟨.hbm, 67, rfl⟩
abbrev main_call2_v0 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_call3_v0 : Ref sig .tc := ⟨.hbm, 78, rfl⟩
abbrev main_call3_v1 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_v47 : Ref sig .tc := ⟨.hbm, 83, rfl⟩
abbrev main_cst_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_15 : Ref sig .tc := ⟨.hbm, 88, rfl⟩
abbrev main_call4_v0 : Ref sig .tc := ⟨.hbm, 89, rfl⟩
abbrev main_call4_v1 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_c_17 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_18 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call5_cst : Ref sig .tc := ⟨.hbm, 115, rfl⟩
abbrev main_call5_v0 : Ref sig .tc := ⟨.hbm, 116, rfl⟩
abbrev main_v72 : Ref sig .tc := ⟨.hbm, 117, rfl⟩
abbrev main_cst_19 : Ref sig .tc := ⟨.hbm, 118, rfl⟩
abbrev main_v73 : Ref sig .tc := ⟨.hbm, 119, rfl⟩
abbrev main_v74 : Ref sig .tc := ⟨.hbm, 120, rfl⟩
abbrev main_cst_20 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_21 : Ref sig .tc := ⟨.hbm, 125, rfl⟩
abbrev main_call6_v0 : Ref sig .tc := ⟨.hbm, 126, rfl⟩
abbrev main_call6_v1 : Ref sig .tc := ⟨.hbm, 127, rfl⟩
abbrev main_v78 : Ref sig .tc := ⟨.hbm, 128, rfl⟩
abbrev main_cst_22 : Ref sig .tc := ⟨.hbm, 129, rfl⟩
abbrev main_v79 : Ref sig .tc := ⟨.hbm, 130, rfl⟩
abbrev main_v80 : Ref sig .tc := ⟨.hbm, 131, rfl⟩
abbrev main_cst_23 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_24 : Ref sig .tc := ⟨.hbm, 136, rfl⟩
abbrev main_call7_v0 : Ref sig .tc := ⟨.hbm, 137, rfl⟩
abbrev main_call7_v1 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_25 : Ref sig .tc := ⟨.hbm, 143, rfl⟩
abbrev main_v88 : Ref sig .tc := ⟨.hbm, 144, rfl⟩
abbrev main_v89 : Ref sig .tc := ⟨.hbm, 145, rfl⟩
abbrev main_c_26 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_27 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call8_cst : Ref sig .tc := ⟨.hbm, 163, rfl⟩
abbrev main_call8_v0 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_28 : Ref sig .tc := ⟨.hbm, 173, rfl⟩
abbrev main_v113 : Ref sig .tc := ⟨.hbm, 174, rfl⟩
abbrev main_v114 : Ref sig .tc := ⟨.hbm, 175, rfl⟩
abbrev main_cst_29 : Ref sig .tc := ⟨.hbm, 176, rfl⟩
abbrev main_v115 : Ref sig .tc := ⟨.hbm, 177, rfl⟩
abbrev main_v116 : Ref sig .tc := ⟨.hbm, 178, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«145482_j13804024889640_1_alg».proof.Proof.LibPlainMatmul
import proofs.«145482_j13804024889640_1_alg».proof.Proof.LibHostReads
import proofs.«145482_j13804024889640_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.GraphNet.lean ====
/-
  A three-layer graph convolution network with a logistic head, as ONE function of its inputs on the extended reals.

  The graph is a list of 800000 edges (src e → dst e) over 50000 nodes. A node's out-degree is the number of edges
  leaving it and its in-degree the number arriving; each degree d gives the weight 1/√max(d, 1) where d > 0 and 0
  where d = 0. One propagation step scales every node's feature row by its out-weight, sums the scaled rows of the
  sources of the edges arriving at each node, and scales the sum by the node's in-weight. A layer is a propagation
  step followed by a dense map X · W + b and a maximum with zero; the head is X · Wp + bp squeezed to a vector and
  sent through 1 / (1 + exp(−·)).

  Everything is spelt with the host's own operations at the full array sizes, so that a program which performs
  these operations one after the other computes `model` of its inputs by unfolding alone.
-/
import proofs.«145482_j13804024889640_1_alg».proof.ReferenceIdeal
import proofs.«145482_j13804024889640_1_alg».proof.Proof.Gen.ReferenceIdeal
import proofs.«145482_j13804024889640_1_alg».proof.Proof.LibBlockRows

noncomputable section

namespace Cert.GraphNet

open Idealize.ShloMosaic Cert.ReferenceIdeal Cert.ReferenceIdeal.Facts₀ Cert.ReferenceIdeal.Facts

/-- How many edges name each node in the index vector `idx`: a one per edge, added at the named node onto zeros. -/
def degree (idx : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- The weight of a degree: 1/√max(d, 1) where d > 0, and 0 where d = 0. -/
def weight (deg : FVec Ideal S50000 .f32) : FVec Ideal S50000 .f32 :=
  select (cmpf .ogt deg (broadcastInDim S50000 ![] bcast_S_S50000 (constant (F := Ideal) S_ .f32 0x00000000#32)))
    (Host.rsqrt (F := Ideal) (maximumf deg (broadcastInDim S50000 ![] bcast_S_S50000 (constant (F := Ideal) S_ .f32 0x3F800000#32))))
    (broadcastInDim S50000 ![] bcast_S_S50000 (id (constant (F := Ideal) S_ .f32 0x00000000#32)))

/-- One propagation step: rows scaled by the out-weights `ws`, the rows of each edge's source (a negative index
    word counted from the end) summed at the edge's destination, the sums scaled by the in-weights `wd`. -/
def propagate (x : FVec Ideal S50000x128 .f32) (src dst : IVec S800000 32) (ws wd : FVec Ideal S50000 .f32) :
    FVec Ideal S50000x128 .f32 :=
  mulf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128
        (mulf x (broadcastInDim S50000x128 ![0, 1] bcast_S50000x1_S50000x128_0_1
          (broadcastInDim S50000x1 ![0] bcast_S50000_S50000x1_0 ws)))
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0 wd))

/-- A dense map to 128 features and a maximum with zero: max(X · W + b, 0), the bias laid as a row first. -/
def dense128 (x : FVec Ideal S50000x128 .f32) (W : FVec Ideal S128x128 .f32) (b : FVec Ideal S128 .f32) :
    FVec Ideal S50000x128 .f32 :=
  Cert.BlockRows.relu (M := 50000) (N := 128) bcast_S_S50000x128
    (Cert.BlockRows.dense (M := 50000) (K := 128) (N := 128) bcast_S1x128_S50000x128_0_1 x W
      (broadcastInDim S1x128 ![1] bcast_S128_S1x128_1 b))

/-- A dense map to 64 features and a maximum with zero. -/
def dense64 (x : FVec Ideal S50000x128 .f32) (W : FVec Ideal S128x64 .f32) (b : FVec Ideal S64 .f32) :
    FVec Ideal S50000x64 .f32 :=
  Cert.BlockRows.relu (M := 50000) (N := 64) bcast_S_S50000x64
    (Cert.BlockRows.dense (M := 50000) (K := 128) (N := 64) bcast_S1x64_S50000x64_0_1 x W
      (broadcastInDim S1x64 ![1] bcast_S64_S1x64_1 b))

/-- The head: X · Wp + bp as a vector, through 1 / (1 + exp(−·)). -/
def head (x : FVec Ideal S50000x64 .f32) (Wp : FVec Ideal S64x1 .f32) (bp : FVec Ideal S1 .f32) : FVec Ideal S50000 .f32 :=
  Host.divf (F := Ideal) (broadcastInDim S50000 ![] bcast_S_S50000 (constant (F := Ideal) S_ .f32 0x3F800000#32))
    (addf (broadcastInDim S50000 ![] bcast_S_S50000 (constant (F := Ideal) S_ .f32 0x3F800000#32))
      (Host.exp (F := Ideal) (Host.negf (F := Ideal) (shapeCast S50000
        (addf (Host.dotGeneral (F := Ideal) dot_S50000x64_S64x1_S50000x1_1_0_0_1_n_n none x Wp)
          (broadcastInDim S50000x1 ![0, 1] bcast_S1x1_S50000x1_0_1 (broadcastInDim S1x1 ![1] bcast_S1_S1x1_1 bp)))
        shapeCasts_S50000x1_S50000))))

/-- The whole network: three layers over one graph, then the head. -/
def model (x : FVec Ideal S50000x128 .f32) (src dst : IVec S800000 32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) (Wp : FVec Ideal S64x1 .f32) (bp : FVec Ideal S1 .f32) :
    FVec Ideal S50000 .f32 :=
  head
    (dense64 (propagate
      (dense128 (propagate
        (dense128 (propagate x src dst (weight (degree src)) (weight (degree dst))) W1 b1)
        src dst (weight (degree src)) (weight (degree dst))) W2 b2)
      src dst (weight (degree src)) (weight (degree dst))) W3 b3)
    Wp bp

end Cert.GraphNet

end
-- ==== Proof.RefModel.lean ====
/-
  The reference computes the network: the term its run leaves in the result buffer — its 167 host operations
  composed — is `model` of the argument arrays. The two are the same operations in the same order (the reference
  recomputes the two weight vectors before every layer, `model` names them once), so the equation holds by unfolding
  the definitions.
-/
import proofs.«145482_j13804024889640_1_alg».proof.Proof.RefRun
import proofs.«145482_j13804024889640_1_alg».proof.Proof.GraphNet

noncomputable section

namespace Cert.ReferenceIdeal.RefValue

open Idealize.ShloMosaic Idealize.ShloMosaic.TcCoe Idealize.SL.Sem
open Cert.ReferenceIdeal Cert.ReferenceIdeal.Gen

set_option maxRecDepth 8192 in
/-- The reference's result term is the network of its arguments. -/
theorem result_eq (m : (ℓ : Loc nD τ sig) → Buf (Elt Ideal) ℓ) (c : Dev nD) :
    Cert.ReferenceIdeal.ValueP.res_main_v116 (F := Ideal) m c
      = Cert.GraphNet.model (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.ValueP.res_main_v116
  rfl

end Cert.ReferenceIdeal.RefValue

end
-- ==== Proof.StretchWeights.lean ====
/-
  The host operations that make the two weight vectors, one stretch at a time.

  @main's first stretch counts, for every node, the edges leaving it and the edges arriving at it (a one per edge,
  added at the named node), tests the first count for d > 0 and takes 1/√max(d, 1) of it; the second stretch chooses
  between that and 0 (an outlined select: it leaves transports along equalities of buffer types, which are
  identities); the third and fourth do the same to the second count. Each lemma reads ONE buffer after ONE stretch as
  a function of the contents before it, whatever those are, so that the stretches compose; none writes an argument.
-/
import proofs.«145482_j13804024889640_1_alg».proof.Proof.Gen.KernelIdeal.Launch
import proofs.«145482_j13804024889640_1_alg».proof.Proof.GraphNet
import Idealize.ShloMosaic.Lib.StableHlo.Run

noncomputable section

namespace Cert.KernelIdeal.Stretches

open Idealize.ShloMosaic Idealize.ShloMosaic.TcCoe Idealize.SL.Sem Idealize.ShloMosaic.StableHlo
open Cert.KernelIdeal Cert.KernelIdeal.Gen Cert.GraphNet

/-- Where a count is positive. -/
abbrev positive (d : FVec Ideal Cert.ReferenceIdeal.S50000 .f32) : IVec Cert.ReferenceIdeal.S50000 1 :=
  cmpf .ogt d (broadcastInDim Cert.ReferenceIdeal.S50000 ![] Cert.ReferenceIdeal.Facts₀.bcast_S_S50000 (constant (F := Ideal) Cert.ReferenceIdeal.S_ .f32 0x00000000#32))

/-- 1/√max(d, 1) of a count. -/
abbrev invRoot (d : FVec Ideal Cert.ReferenceIdeal.S50000 .f32) : FVec Ideal Cert.ReferenceIdeal.S50000 .f32 :=
  Host.rsqrt (F := Ideal) (maximumf d
    (broadcastInDim Cert.ReferenceIdeal.S50000 ![] Cert.ReferenceIdeal.Facts₀.bcast_S_S50000 (constant (F := Ideal) Cert.ReferenceIdeal.S_ .f32 0x3F800000#32)))

/-- The first value where the test holds, the scalar elsewhere. -/
abbrev choose (p : IVec Cert.ReferenceIdeal.S50000 1) (r : FVec Ideal Cert.ReferenceIdeal.S50000 .f32) (z : FVec Ideal Cert.ReferenceIdeal.S_ .f32) :
    FVec Ideal Cert.ReferenceIdeal.S50000 .f32 :=
  select p r (broadcastInDim Cert.ReferenceIdeal.S50000 ![] Cert.ReferenceIdeal.Facts₀.bcast_S_S50000 (id z))

/-- The weight of a count is the choice between its inverse root and zero by its positivity. -/
theorem weight_eq (d : FVec Ideal Cert.ReferenceIdeal.S50000 .f32) :
    weight d = choose (positive d) (invRoot d) (constant (F := Ideal) Cert.ReferenceIdeal.S_ .f32 0x00000000#32) := rfl

variable (W : Valuation τ sig (Elt Ideal))

/-! ## The first stretch: both counts, and the first count's test and inverse root -/

theorem s0_v8 : after (hostOps0 (F := Ideal)) W (Proc.devRef .tc main_v8) = positive (degree (W (Proc.devRef .tc main_arg1))) := by
  simp only [hostOps0]
  after_results_simp <;> rfl

theorem s0_v11 : after (hostOps0 (F := Ideal)) W (Proc.devRef .tc main_v11) = invRoot (degree (W (Proc.devRef .tc main_arg1))) := by
  simp only [hostOps0]
  after_results_simp <;> rfl

theorem s0_cst4 : after (hostOps0 (F := Ideal)) W (Proc.devRef .tc main_cst_4) = constant (F := Ideal) Cert.ReferenceIdeal.S_ .f32 0x00000000#32 := by
  simp only [hostOps0]
  after_results_simp <;> rfl

theorem s0_v6 : after (hostOps0 (F := Ideal)) W (Proc.devRef .tc main_v6) = degree (W (Proc.devRef .tc main_arg2)) := by
  simp only [hostOps0]
  after_results_simp <;> rfl

theorem s0_arg (b : Ref sig .tc)
    (hb : b = main_arg0 ∨ b = main_arg1 ∨ b = main_arg2 ∨ b = main_arg4 ∨ b = main_arg5 ∨ b = main_arg6 ∨ b = main_arg7
      ∨ b = main_arg8 ∨ b = main_arg9 ∨ b = main_arg10 ∨ b = main_arg11) :
    after (hostOps0 (F := Ideal)) W (Proc.devRef .tc b) = W (Proc.devRef .tc b) := by
  rcases hb with rfl | rfl | rfl | rfl | rfl | rfl | rfl | rfl | rfl | rfl | rfl <;>
    (simp only [hostOps0]; after_results_simp)

/-! ## The second stretch: the out-weights -/

theorem s1_v12 : after (hostOps0_1 (F := Ideal)) W (Proc.devRef .tc main_v12)
    = choose (W (Proc.devRef .tc main_v8)) (W (Proc.devRef .tc main_v11)) (W (Proc.devRef .tc main_cst_4)) := by
  simp only [hostOps0_1]
  after_results_simp
  simp only [cast_eq]

theorem s1_keep (b : Ref sig .tc)
    (hb : b = main_v6 ∨ b = main_arg0 ∨ b = main_arg1 ∨ b = main_arg2 ∨ b = main_arg4 ∨ b = main_arg5 ∨ b = main_arg6
      ∨ b = main_arg7 ∨ b = main_arg8 ∨ b = main_arg9 ∨ b = main_arg10 ∨ b = main_arg11) :
    after (hostOps0_1 (F := Ideal)) W (Proc.devRef .tc b) = W (Proc.devRef .tc b) := by
  rcases hb with rfl | rfl | rfl | rfl | rfl | rfl | rfl | rfl | rfl | rfl | rfl | rfl <;>
    (simp only [hostOps0_1]; after_results_simp)

/-! ## The third stretch: the second count's test and inverse root -/

theorem s2_v14 : after (hostOps0_2 (F := Ideal)) W (Proc.devRef .tc main_v14) = positive (W (Proc.devRef .tc main_v6)) := by
  simp only [hostOps0_2]
  after_results_simp <;> rfl

theorem s2_v17 : after (hostOps0_2 (F := Ideal)) W (Proc.devRef .tc main_v17) = invRoot (W (Proc.devRef .tc main_v6)) := by
  simp only [hostOps0_2]
  after_results_simp <;> rfl

theorem s2_cst7 : after (hostOps0_2 (F := Ideal)) W (Proc.devRef .tc main_cst_7) = constant (F := Ideal) Cert.ReferenceIdeal.S_ .f32 0x00000000#32 := by
  simp only [hostOps0_2]
  after_results_simp <;> rfl

theorem s2_keep (b : Ref sig .tc)
    (hb : b = main_v12 ∨ b = main_arg0 ∨ b = main_arg1 ∨ b = main_arg2 ∨ b = main_arg4 ∨ b = main_arg5 ∨ b = main_arg6
      ∨ b = main_arg7 ∨ b = main_arg8 ∨ b = main_arg9 ∨ b = main_arg10 ∨ b = main_arg11) :
    after (hostOps0_2 (F := Ideal)) W (Proc.devRef .tc b) = W (Proc.devRef .tc b) := by
  rcases hb with rfl | rfl | rfl | rfl | rfl | rfl | rfl | rfl | rfl | rfl | rfl | rfl <;>
    (simp only [hostOps0_2]; after_results_simp)

/-! ## The fourth stretch: the in-weights -/

theorem s3_v18 : after (hostOps0_3 (F := Ideal)) W (Proc.devRef .tc main_v18)
    = choose (W (Proc.devRef .tc main_v14)) (W (Proc.devRef .tc main_v17)) (W (Proc.devRef .tc main_cst_7)) := by
  simp only [hostOps0_3]
  after_results_simp
  simp only [cast_eq]

theorem s3_keep (b : Ref sig .tc)
    (hb : b = main_v12 ∨ b = main_arg0 ∨ b = main_arg1 ∨ b = main_arg2 ∨ b = main_arg4 ∨ b = main_arg5 ∨ b = main_arg6
      ∨ b = main_arg7 ∨ b = main_arg8 ∨ b = main_arg9 ∨ b = main_arg10 ∨ b = main_arg11) :
    after (hostOps0_3 (F := Ideal)) W (Proc.devRef .tc b) = W (Proc.devRef .tc b) := by
  rcases hb with rfl | rfl | rfl | rfl | rfl | rfl | rfl | rfl | rfl | rfl | rfl | rfl <;>
    (simp only [hostOps0_3]; after_results_simp)

end Cert.KernelIdeal.Stretches

end
-- ==== Proof.Stretches.lean ====
/-
  The host operations between the pallas_calls, read at the buffers that matter.

  After the stretches that make the two weight vectors (Proof/StretchWeights.lean), @main runs one stretch of host
  operations before each call (a propagation step — on the features before the first call, on the previous call's
  output before the others — and the call's bias laid as a row), and one after the last call (the head). Each lemma below
  says what ONE buffer holds after a stretch, as a function of what the buffers held before it — for ANY contents
  before it, so that the stretches compose: a propagation step's result is `propagate` of
  the feature array, the two index vectors and the two weight vectors it finds; a buffer no operation of the
  stretch writes keeps its contents.
-/
import proofs.«145482_j13804024889640_1_alg».proof.Proof.Gen.KernelIdeal.Launch
import proofs.«145482_j13804024889640_1_alg».proof.Proof.GraphNet
import Idealize.ShloMosaic.Lib.StableHlo.Run

noncomputable section

namespace Cert.KernelIdeal.Stretches

open Idealize.ShloMosaic Idealize.ShloMosaic.TcCoe Idealize.SL.Sem Idealize.ShloMosaic.StableHlo
open Cert.KernelIdeal Cert.KernelIdeal.Gen Cert.GraphNet

variable (W : Valuation τ sig (Elt Ideal))

/-! ## The stretch before the first call -/

/-- The first call's input rows: one propagation step on the features, with the weights this stretch finds. -/
theorem first_v34 : after (hostOps0_4 (F := Ideal)) W (Proc.devRef .tc main_v34)
    = propagate (W (Proc.devRef .tc main_arg0)) (W (Proc.devRef .tc main_arg1)) (W (Proc.devRef .tc main_arg2))
        (W (Proc.devRef .tc main_v12)) (W (Proc.devRef .tc main_v18)) := by
  simp only [hostOps0_4]
  after_results_simp
  rfl

/-- The first call's bias row: the first bias vector laid as a row. -/
theorem first_v35 : after (hostOps0_4 (F := Ideal)) W (Proc.devRef .tc main_v35)
    = broadcastInDim Cert.ReferenceIdeal.S1x128 ![1] Cert.ReferenceIdeal.Facts₀.bcast_S128_S1x128_1 (W (Proc.devRef .tc main_arg5)) := by
  simp only [hostOps0_4]
  after_results_simp <;> rfl

/-- What this stretch does not write it keeps. -/
theorem first_keep (b : Ref sig .tc)
    (hb : b = main_arg1 ∨ b = main_arg2 ∨ b = main_v12 ∨ b = main_v18 ∨ b = main_arg4 ∨ b = main_arg6 ∨ b = main_arg7
      ∨ b = main_arg8 ∨ b = main_arg9 ∨ b = main_arg10 ∨ b = main_arg11) :
    after (hostOps0_4 (F := Ideal)) W (Proc.devRef .tc b) = W (Proc.devRef .tc b) := by
  rcases hb with rfl | rfl | rfl | rfl | rfl | rfl | rfl | rfl | rfl | rfl | rfl <;>
    (simp only [hostOps0_4]; after_results_simp)

/-! ## Between the first and the second call -/

/-- The second call's input rows: one propagation step on the first call's output. -/
theorem mid1_v52 : after (hostOps1 (F := Ideal)) W (Proc.devRef .tc main_v52)
    = propagate (W (Proc.devRef .tc main_v36)) (W (Proc.devRef .tc main_arg1)) (W (Proc.devRef .tc main_arg2))
        (W (Proc.devRef .tc main_v12)) (W (Proc.devRef .tc main_v18)) := by
  simp only [hostOps1]
  after_results_simp
  rfl

/-- The second call's bias row. -/
theorem mid1_v53 : after (hostOps1 (F := Ideal)) W (Proc.devRef .tc main_v53)
    = broadcastInDim Cert.ReferenceIdeal.S1x128 ![1] Cert.ReferenceIdeal.Facts₀.bcast_S128_S1x128_1 (W (Proc.devRef .tc main_arg7)) := by
  simp only [hostOps1]
  after_results_simp <;> rfl

/-- What this stretch does not write it keeps. -/
theorem mid1_keep (b : Ref sig .tc)
    (hb : b = main_arg1 ∨ b = main_arg2 ∨ b = main_v12 ∨ b = main_v18 ∨ b = main_arg6 ∨ b = main_arg8 ∨ b = main_arg9
      ∨ b = main_arg10 ∨ b = main_arg11) :
    after (hostOps1 (F := Ideal)) W (Proc.devRef .tc b) = W (Proc.devRef .tc b) := by
  rcases hb with rfl | rfl | rfl | rfl | rfl | rfl | rfl | rfl | rfl <;>
    (simp only [hostOps1]; after_results_simp)

/-! ## Between the second and the third call -/

/-- The third call's input rows: one propagation step on the second call's output. -/
theorem mid2_v70 : after (hostOps2 (F := Ideal)) W (Proc.devRef .tc main_v70)
    = propagate (W (Proc.devRef .tc main_v54)) (W (Proc.devRef .tc main_arg1)) (W (Proc.devRef .tc main_arg2))
        (W (Proc.devRef .tc main_v12)) (W (Proc.devRef .tc main_v18)) := by
  simp only [hostOps2]
  after_results_simp
  rfl

/-- The third call's bias row. -/
theorem mid2_v71 : after (hostOps2 (F := Ideal)) W (Proc.devRef .tc main_v71)
    = broadcastInDim Cert.ReferenceIdeal.S1x64 ![1] Cert.ReferenceIdeal.Facts₀.bcast_S64_S1x64_1 (W (Proc.devRef .tc main_arg9)) := by
  simp only [hostOps2]
  after_results_simp <;> rfl

/-- What this stretch does not write it keeps. -/
theorem mid2_keep (b : Ref sig .tc) (hb : b = main_arg8 ∨ b = main_arg10 ∨ b = main_arg11) :
    after (hostOps2 (F := Ideal)) W (Proc.devRef .tc b) = W (Proc.devRef .tc b) := by
  rcases hb with rfl | rfl | rfl <;> (simp only [hostOps2]; after_results_simp)

/-! ## After the third call -/

/-- The result: the head on the third call's output. -/
theorem tail_v83 : after (hostOps3 (F := Ideal)) W (Proc.devRef .tc main_v83)
    = head (W (Proc.devRef .tc main_v72)) (W (Proc.devRef .tc main_arg10)) (W (Proc.devRef .tc main_arg11)) := by
  simp only [hostOps3]
  after_results_simp
  rfl

end Cert.KernelIdeal.Stretches

end
-- ==== Proof.Layer0.lean ====
/-
  The first dense layer: what the first pallas_call leaves in its output array.

  The call cuts the 50000 rows of its input X into ten blocks of 5000 rows; at grid point t it loads rows
  5000·t … 5000·t + 4999 of X, the whole weight matrix W and the one bias row B, stores max(x · W + B, 0) for
  those rows, and writes the 5000 stored rows back at the same place in the output. Row r of X · W is
  Σ_k X (r, k) · W (k, ·): it reads row r of X and no other, so what point t writes back is rows 5000·t … of
  max(X · W + B, 0) computed on all 50000 rows at once. The ten blocks tile the rows (row r lies in block r / 5000),
  so after the run the output array IS max(X · W + B, 0), for whatever contents the three arrays have when the
  call is entered.
-/
import proofs.«145482_j13804024889640_1_alg».proof.Proof.Gen.KernelIdeal.Frame
import proofs.«145482_j13804024889640_1_alg».proof.Proof.LibBlockRows
import Idealize.ShloMosaic.Lib.Pipeline.Value
import Idealize.ShloMosaic.Lib.ValueIdx

noncomputable section

namespace Cert.KernelIdeal.Layer0

open Idealize.ShloMosaic Idealize.ShloMosaic.TcCoe Idealize.ShloMosaic.ValueIdx Idealize.SL.Sem
open Cert.KernelIdeal Cert.KernelIdeal.Gen Cert.BlockRows

/-- The body's stored value on 5000 picked rows of X, with the whole of W and the bias row B, is the picked rows of
    max(X · W + B, 0) computed on all 50000 rows: each row of the product reads that row of X alone. -/
theorem body_rows (ρ : Fin 5000 → Fin 50000) (X : FVec Ideal ⟨2, ![50000, 128]⟩ .f32) (W : FVec Ideal ⟨2, ![128, 128]⟩ .f32)
    (B : FVec Ideal ⟨2, ![1, 128]⟩ .f32)
    (h2 : (⟨2, ![1, 128]⟩ : Shape).BroadcastsInDim ⟨2, ![50000, 128]⟩ ![0, 1])
    (h0 : (⟨0, ![]⟩ : Shape).BroadcastsInDim ⟨2, ![50000, 128]⟩ ![]) :
    k0_pay1 (F := Ideal) (rowsOf ρ X) W B = rowsOf ρ (relu h0 (dense h2 X W B)) := by
  have hd := dense_rows (TM := 5000) (M := 50000) (K := 128) (N := 128) ρ
    (by decide : (⟨2, ![128, 128]⟩ : Shape).ShapeCasts ⟨2, ![128, 128]⟩) shapeCasts_S1x128_S1x128 broadcasts_S1x128_S5000x128 h2 X W B
  rw [shapeCast_self, shapeCast_self] at hd
  unfold k0_pay1
  simp only [shapeCast_self]
  exact (congrArg (fun z => maximumf z (broadcast S5000x128 (Scalar.ofBits (F := Ideal) .f32 0x00000000#32))) hd).trans
    (relu_rows ρ h0 (dense h2 X W B))

variable (V : (c : Dev nD) → (b : Ref sig .tc) → Buf (Elt Ideal) ((c : Thread nD τ).loc b))

/-- The layer on the arrays as the call finds them: max(X · W + B, 0) on all 50000 rows. -/
def result (c : Dev nD) : FVec Ideal ⟨2, ![50000, 128]⟩ .f32 :=
  relu (M := 50000) (N := 128) (by decide)
    (dense (M := 50000) (K := 128) (N := 128) (by decide) (V c main_v34) (V c main_arg4) (V c main_v35))

theorem zero_offsets : (![0, 0] : Fin 2 → Nat) = fun _ => 0 := funext fun a => by fin_cases a <;> rfl

/-- The grid has ten points. -/
theorem point_lt (t : Fin cfg0.N) : t.val < 10 := lt_of_lt_of_eq t.isLt N_0

/-- The rows of block t: row p of the block is row 5000·t + p of the array. -/
abbrev rowsAt (t : Fin cfg0.N) : Fin 5000 → Fin 50000 := blockRow 5000 10 50000 (by norm_num) ⟨t.val, point_lt t⟩

/-- The printed index maps, decided over the grid: the input rows and the output rows are block t along the rows
    and block 0 along the columns; the weights and the bias row are always block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of X that point t loads is rows 5000·t … of X. -/
theorem input_block (c : Dev nD) (t : Fin cfg0.N) :
    (iblk0 V c 0 t : Vec Ideal S5000x128 .f32) = rowsOf (rowsAt t) (V c main_v34 : FVec Ideal ⟨2, ![50000, 128]⟩ .f32) := by
  obtain ⟨e0, e1, -⟩ := index_maps t
  funext j
  show (V c main_v34 : S50000x128.Idx → Ideal .f32) (((cfg0.win 0).blk t).view.emb j)
    = (V c main_v34 : S50000x128.Idx → Ideal .f32) (ix2 (rowsAt t (j 0)) (j 1))
  refine congrArg _ (funext fun a => Fin.ext ?_)
  match a with
  | ⟨0, _⟩ =>
    show win0_0.index t (0 : Fin 2) * 5000 + 1 * (j 0).val = 5000 * t.val + (j 0).val
    rw [e0]; omega
  | ⟨1, _⟩ =>
    show win0_0.index t (1 : Fin 2) * 128 + 1 * (j 1).val = (j 1).val
    rw [e1]; omega

/-- The block of W that every point loads is the whole of W. -/
theorem weight_block (c : Dev nD) (t : Fin cfg0.N) :
    (iblk0 V c 1 t : Vec Ideal S128x128 .f32) = (V c main_arg4 : FVec Ideal ⟨2, ![128, 128]⟩ .f32) := by
  obtain ⟨-, -, e0, e1, -⟩ := index_maps t
  funext j
  show (V c main_arg4 : S128x128.Idx → Ideal .f32) (((cfg0.win 1).blk t).view.emb j) = (V c main_arg4 : S128x128.Idx → Ideal .f32) j
  refine congrArg _ (funext fun a => Fin.ext ?_)
  match a with
  | ⟨0, _⟩ =>
    show win0_1.index t (0 : Fin 2) * 128 + 1 * (j 0).val = (j 0).val
    rw [e0]; omega
  | ⟨1, _⟩ =>
    show win0_1.index t (1 : Fin 2) * 128 + 1 * (j 1).val = (j 1).val
    rw [e1]; omega

/-- The block of B that every point loads is the whole bias row. -/
theorem bias_block (c : Dev nD) (t : Fin cfg0.N) :
    (iblk0 V c 2 t : Vec Ideal S1x128 .f32) = (V c main_v35 : FVec Ideal ⟨2, ![1, 128]⟩ .f32) := by
  obtain ⟨-, -, -, -, e0, e1, -⟩ := index_maps t
  funext j
  show (V c main_v35 : S1x128.Idx → Ideal .f32) (((cfg0.win 2).blk t).view.emb j) = (V c main_v35 : S1x128.Idx → Ideal .f32) j
  refine congrArg _ (funext fun a => Fin.ext ?_)
  match a with
  | ⟨0, _⟩ =>
    show win0_2.index t (0 : Fin 2) * 1 + 1 * (j 0).val = (j 0).val
    rw [e0]; omega
  | ⟨1, _⟩ =>
    show win0_2.index t (1 : Fin 2) * 128 + 1 * (j 1).val = (j 1).val
    rw [e1]; omega

/-- What point t writes back is block t of the layer computed on the whole arrays. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  rw [input_block V c t, weight_block V c t, bias_block V c t, body_rows]
  obtain ⟨-, -, -, -, -, -, e0, e1⟩ := index_maps t
  funext j
  show result V c (ix2 (rowsAt t (j 0)) (j 1)) = result V c (((cfg0.win 3).blk t).view.emb j)
  refine congrArg _ (funext fun a => Fin.ext ?_)
  match a with
  | ⟨0, _⟩ =>
    show 5000 * t.val + (j 0).val = win0_3.index t (0 : Fin 2) * 5000 + 1 * (j 0).val
    rw [e0]; omega
  | ⟨1, _⟩ =>
    show (j 1).val = win0_3.index t (1 : Fin 2) * 128 + 1 * (j 1).val
    rw [e1]; omega

/-- An index of the output array lies in point t's block iff each coordinate lies in the block's range. -/
theorem mem_block (t : Fin cfg0.N) (i : S50000x128.Idx) :
    i ∈ ((cfg0.win 3).blk t).view.set ↔
      ∀ a : Fin 2, win0_3.index t a * S5000x128.size a ≤ (i a).val ∧ (i a).val < win0_3.index t a * S5000x128.size a + S5000x128.size a := by
  show i ∈ ((View.whole main_v36).slice (win0_3.rect t)).set ↔ _
  rw [View.set_slice_whole, Rect.mem_set_unit]
  exact Iff.rfl

/-- The ten blocks cover the output: row r lies in block r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_block]
  obtain ⟨-, -, -, -, -, -, e0, e1⟩ := index_maps ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e1]; omega

/-- After the call its output array is the layer computed on the whole arrays as the call found them. -/
theorem final (c : Dev nD) : (dat0 V c).arrAt 3 cfg0.N = result V c :=
  (dat0 V c).arrAt_eq_of_cover 3 (result V c) (fun t _ => flushed_eq V c t) (covered)

/-- The same with the entry contents named: if the call finds X, W and the bias row B, it leaves max(X · W + B, 0). -/
theorem final_of (c : Dev nD) (X : FVec Ideal ⟨2, ![50000, 128]⟩ .f32) (W : FVec Ideal ⟨2, ![128, 128]⟩ .f32)
    (B : FVec Ideal ⟨2, ![1, 128]⟩ .f32) (hX : (V c main_v34 : FVec Ideal ⟨2, ![50000, 128]⟩ .f32) = X)
    (hW : (V c main_arg4 : FVec Ideal ⟨2, ![128, 128]⟩ .f32) = W) (hB : (V c main_v35 : FVec Ideal ⟨2, ![1, 128]⟩ .f32) = B) :
    (dat0 V c).arrAt 3 cfg0.N
      = relu (M := 50000) (N := 128) (by decide) (dense (M := 50000) (K := 128) (N := 128) (by decide) X W B) := by
  subst hX hW hB
  exact final V c

end Cert.KernelIdeal.Layer0

end
-- ==== Proof.Layer1.lean ====
/-
  The second dense layer: what the second pallas_call leaves in its output array.

  The call cuts the 50000 rows of its input X into ten blocks of 5000 rows; at grid point t it loads rows
  5000·t … 5000·t + 4999 of X, the whole weight matrix W and the one bias row B, stores max(x · W + B, 0) for
  those rows, and writes the 5000 stored rows back at the same place in the output. Row r of X · W is
  Σ_k X (r, k) · W (k, ·): it reads row r of X and no other, so what point t writes back is rows 5000·t … of
  max(X · W + B, 0) computed on all 50000 rows at once. The ten blocks tile the rows (row r lies in block r / 5000),
  so after the run the output array IS max(X · W + B, 0), for whatever contents the three arrays have when the
  call is entered.
-/
import proofs.«145482_j13804024889640_1_alg».proof.Proof.Gen.KernelIdeal.Frame
import proofs.«145482_j13804024889640_1_alg».proof.Proof.LibBlockRows
import Idealize.ShloMosaic.Lib.Pipeline.Value
import Idealize.ShloMosaic.Lib.ValueIdx

noncomputable section

namespace Cert.KernelIdeal.Layer1

open Idealize.ShloMosaic Idealize.ShloMosaic.TcCoe Idealize.ShloMosaic.ValueIdx Idealize.SL.Sem
open Cert.KernelIdeal Cert.KernelIdeal.Gen Cert.BlockRows

/-- The body's stored value on 5000 picked rows of X, with the whole of W and the bias row B, is the picked rows of
    max(X · W + B, 0) computed on all 50000 rows: each row of the product reads that row of X alone. -/
theorem body_rows (ρ : Fin 5000 → Fin 50000) (X : FVec Ideal ⟨2, ![50000, 128]⟩ .f32) (W : FVec Ideal ⟨2, ![128, 128]⟩ .f32)
    (B : FVec Ideal ⟨2, ![1, 128]⟩ .f32)
    (h2 : (⟨2, ![1, 128]⟩ : Shape).BroadcastsInDim ⟨2, ![50000, 128]⟩ ![0, 1])
    (h0 : (⟨0, ![]⟩ : Shape).BroadcastsInDim ⟨2, ![50000, 128]⟩ ![]) :
    k1_pay1 (F := Ideal) (rowsOf ρ X) W B = rowsOf ρ (relu h0 (dense h2 X W B)) := by
  have hd := dense_rows (TM := 5000) (M := 50000) (K := 128) (N := 128) ρ
    (by decide : (⟨2, ![128, 128]⟩ : Shape).ShapeCasts ⟨2, ![128, 128]⟩) shapeCasts_S1x128_S1x128 broadcasts_S1x128_S5000x128 h2 X W B
  rw [shapeCast_self, shapeCast_self] at hd
  unfold k1_pay1
  simp only [shapeCast_self]
  exact (congrArg (fun z => maximumf z (broadcast S5000x128 (Scalar.ofBits (F := Ideal) .f32 0x00000000#32))) hd).trans
    (relu_rows ρ h0 (dense h2 X W B))

variable (V : (c : Dev nD) → (b : Ref sig .tc) → Buf (Elt Ideal) ((c : Thread nD τ).loc b))

/-- The layer on the arrays as the call finds them: max(X · W + B, 0) on all 50000 rows. -/
def result (c : Dev nD) : FVec Ideal ⟨2, ![50000, 128]⟩ .f32 :=
  relu (M := 50000) (N := 128) (by decide)
    (dense (M := 50000) (K := 128) (N := 128) (by decide) (V c main_v52) (V c main_arg6) (V c main_v53))

theorem zero_offsets : (![0, 0] : Fin 2 → Nat) = fun _ => 0 := funext fun a => by fin_cases a <;> rfl

/-- The grid has ten points. -/
theorem point_lt (t : Fin cfg1.N) : t.val < 10 := lt_of_lt_of_eq t.isLt N_1

/-- The rows of block t: row p of the block is row 5000·t + p of the array. -/
abbrev rowsAt (t : Fin cfg1.N) : Fin 5000 → Fin 50000 := blockRow 5000 10 50000 (by norm_num) ⟨t.val, point_lt t⟩

/-- The printed index maps, decided over the grid: the input rows and the output rows are block t along the rows
    and block 0 along the columns; the weights and the bias row are always block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of X that point t loads is rows 5000·t … of X. -/
theorem input_block (c : Dev nD) (t : Fin cfg1.N) :
    (iblk1 V c 0 t : Vec Ideal S5000x128 .f32) = rowsOf (rowsAt t) (V c main_v52 : FVec Ideal ⟨2, ![50000, 128]⟩ .f32) := by
  obtain ⟨e0, e1, -⟩ := index_maps t
  funext j
  show (V c main_v52 : S50000x128.Idx → Ideal .f32) (((cfg1.win 0).blk t).view.emb j)
    = (V c main_v52 : S50000x128.Idx → Ideal .f32) (ix2 (rowsAt t (j 0)) (j 1))
  refine congrArg _ (funext fun a => Fin.ext ?_)
  match a with
  | ⟨0, _⟩ =>
    show win1_0.index t (0 : Fin 2) * 5000 + 1 * (j 0).val = 5000 * t.val + (j 0).val
    rw [e0]; omega
  | ⟨1, _⟩ =>
    show win1_0.index t (1 : Fin 2) * 128 + 1 * (j 1).val = (j 1).val
    rw [e1]; omega

/-- The block of W that every point loads is the whole of W. -/
theorem weight_block (c : Dev nD) (t : Fin cfg1.N) :
    (iblk1 V c 1 t : Vec Ideal S128x128 .f32) = (V c main_arg6 : FVec Ideal ⟨2, ![128, 128]⟩ .f32) := by
  obtain ⟨-, -, e0, e1, -⟩ := index_maps t
  funext j
  show (V c main_arg6 : S128x128.Idx → Ideal .f32) (((cfg1.win 1).blk t).view.emb j) = (V c main_arg6 : S128x128.Idx → Ideal .f32) j
  refine congrArg _ (funext fun a => Fin.ext ?_)
  match a with
  | ⟨0, _⟩ =>
    show win1_1.index t (0 : Fin 2) * 128 + 1 * (j 0).val = (j 0).val
    rw [e0]; omega
  | ⟨1, _⟩ =>
    show win1_1.index t (1 : Fin 2) * 128 + 1 * (j 1).val = (j 1).val
    rw [e1]; omega

/-- The block of B that every point loads is the whole bias row. -/
theorem bias_block (c : Dev nD) (t : Fin cfg1.N) :
    (iblk1 V c 2 t : Vec Ideal S1x128 .f32) = (V c main_v53 : FVec Ideal ⟨2, ![1, 128]⟩ .f32) := by
  obtain ⟨-, -, -, -, e0, e1, -⟩ := index_maps t
  funext j
  show (V c main_v53 : S1x128.Idx → Ideal .f32) (((cfg1.win 2).blk t).view.emb j) = (V c main_v53 : S1x128.Idx → Ideal .f32) j
  refine congrArg _ (funext fun a => Fin.ext ?_)
  match a with
  | ⟨0, _⟩ =>
    show win1_2.index t (0 : Fin 2) * 1 + 1 * (j 0).val = (j 0).val
    rw [e0]; omega
  | ⟨1, _⟩ =>
    show win1_2.index t (1 : Fin 2) * 128 + 1 * (j 1).val = (j 1).val
    rw [e1]; omega

/-- What point t writes back is block t of the layer computed on the whole arrays. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  rw [input_block V c t, weight_block V c t, bias_block V c t, body_rows]
  obtain ⟨-, -, -, -, -, -, e0, e1⟩ := index_maps t
  funext j
  show result V c (ix2 (rowsAt t (j 0)) (j 1)) = result V c (((cfg1.win 3).blk t).view.emb j)
  refine congrArg _ (funext fun a => Fin.ext ?_)
  match a with
  | ⟨0, _⟩ =>
    show 5000 * t.val + (j 0).val = win1_3.index t (0 : Fin 2) * 5000 + 1 * (j 0).val
    rw [e0]; omega
  | ⟨1, _⟩ =>
    show (j 1).val = win1_3.index t (1 : Fin 2) * 128 + 1 * (j 1).val
    rw [e1]; omega

/-- An index of the output array lies in point t's block iff each coordinate lies in the block's range. -/
theorem mem_block (t : Fin cfg1.N) (i : S50000x128.Idx) :
    i ∈ ((cfg1.win 3).blk t).view.set ↔
      ∀ a : Fin 2, win1_3.index t a * S5000x128.size a ≤ (i a).val ∧ (i a).val < win1_3.index t a * S5000x128.size a + S5000x128.size a := by
  show i ∈ ((View.whole main_v54).slice (win1_3.rect t)).set ↔ _
  rw [View.set_slice_whole, Rect.mem_set_unit]
  exact Iff.rfl

/-- The ten blocks cover the output: row r lies in block r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_block]
  obtain ⟨-, -, -, -, -, -, e0, e1⟩ := index_maps ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e1]; omega

/-- After the call its output array is the layer computed on the whole arrays as the call found them. -/
theorem final (c : Dev nD) : (dat1 V c).arrAt 3 cfg1.N = result V c :=
  (dat1 V c).arrAt_eq_of_cover 3 (result V c) (fun t _ => flushed_eq V c t) (covered)

/-- The same with the entry contents named: if the call finds X, W and the bias row B, it leaves max(X · W + B, 0). -/
theorem final_of (c : Dev nD) (X : FVec Ideal ⟨2, ![50000, 128]⟩ .f32) (W : FVec Ideal ⟨2, ![128, 128]⟩ .f32)
    (B : FVec Ideal ⟨2, ![1, 128]⟩ .f32) (hX : (V c main_v52 : FVec Ideal ⟨2, ![50000, 128]⟩ .f32) = X)
    (hW : (V c main_arg6 : FVec Ideal ⟨2, ![128, 128]⟩ .f32) = W) (hB : (V c main_v53 : FVec Ideal ⟨2, ![1, 128]⟩ .f32) = B) :
    (dat1 V c).arrAt 3 cfg1.N
      = relu (M := 50000) (N := 128) (by decide) (dense (M := 50000) (K := 128) (N := 128) (by decide) X W B) := by
  subst hX hW hB
  exact final V c

end Cert.KernelIdeal.Layer1

end
-- ==== Proof.Layer2.lean ====
/-
  The third dense layer, from 128 features to 64: what the third pallas_call leaves in its output array.

  The call cuts the 50000 rows of its input X (128 columns) into ten blocks of 5000 rows; at grid point t it loads
  rows 5000·t … 5000·t + 4999 of X, the whole 128 × 64 weight matrix W and the one bias row B of 64 numbers, stores
  max(x · W + B, 0) for those rows, and writes the 5000 stored rows of 64 numbers back at the same place in the
  output. Row r of X · W reads row r of X and no other, so what point t writes back is rows 5000·t … of
  max(X · W + B, 0) computed on all 50000 rows at once; the ten blocks tile the rows (row r lies in block r / 5000),
  so after the run the output array IS max(X · W + B, 0), for whatever contents the three arrays have when the call
  is entered.
-/
import proofs.«145482_j13804024889640_1_alg».proof.Proof.Gen.KernelIdeal.Frame
import proofs.«145482_j13804024889640_1_alg».proof.Proof.LibBlockRows
import Idealize.ShloMosaic.Lib.Pipeline.Value
import Idealize.ShloMosaic.Lib.ValueIdx

noncomputable section

namespace Cert.KernelIdeal.Layer2

open Idealize.ShloMosaic Idealize.ShloMosaic.TcCoe Idealize.ShloMosaic.ValueIdx Idealize.SL.Sem
open Cert.KernelIdeal Cert.KernelIdeal.Gen Cert.BlockRows

/-- The body's stored value on 5000 picked rows of X, with the whole of W and the bias row B, is the picked rows of
    max(X · W + B, 0) computed on all 50000 rows: each row of the product reads that row of X alone. -/
theorem body_rows (ρ : Fin 5000 → Fin 50000) (X : FVec Ideal ⟨2, ![50000, 128]⟩ .f32) (W : FVec Ideal ⟨2, ![128, 64]⟩ .f32)
    (B : FVec Ideal ⟨2, ![1, 64]⟩ .f32)
    (h2 : (⟨2, ![1, 64]⟩ : Shape).BroadcastsInDim ⟨2, ![50000, 64]⟩ ![0, 1])
    (h0 : (⟨0, ![]⟩ : Shape).BroadcastsInDim ⟨2, ![50000, 64]⟩ ![]) :
    k2_pay1 (F := Ideal) (rowsOf ρ X) W B = rowsOf ρ (relu h0 (dense h2 X W B)) := by
  have hd := dense_rows (TM := 5000) (M := 50000) (K := 128) (N := 64) ρ
    (by decide : (⟨2, ![128, 64]⟩ : Shape).ShapeCasts ⟨2, ![128, 64]⟩) shapeCasts_S1x64_S1x64 broadcasts_S1x64_S5000x64 h2 X W B
  rw [shapeCast_self, shapeCast_self] at hd
  unfold k2_pay1
  simp only [shapeCast_self]
  exact (congrArg (fun z => maximumf z (broadcast S5000x64 (Scalar.ofBits (F := Ideal) .f32 0x00000000#32))) hd).trans
    (relu_rows ρ h0 (dense h2 X W B))

variable (V : (c : Dev nD) → (b : Ref sig .tc) → Buf (Elt Ideal) ((c : Thread nD τ).loc b))

/-- The layer on the arrays as the call finds them: max(X · W + B, 0) on all 50000 rows. -/
def result (c : Dev nD) : FVec Ideal ⟨2, ![50000, 64]⟩ .f32 :=
  relu (M := 50000) (N := 64) (by decide)
    (dense (M := 50000) (K := 128) (N := 64) (by decide) (V c main_v70) (V c main_arg8) (V c main_v71))

theorem zero_offsets : (![0, 0] : Fin 2 → Nat) = fun _ => 0 := funext fun a => by fin_cases a <;> rfl

/-- The grid has ten points. -/
theorem point_lt (t : Fin cfg2.N) : t.val < 10 := lt_of_lt_of_eq t.isLt N_2

/-- The rows of block t: row p of the block is row 5000·t + p of the array. -/
abbrev rowsAt (t : Fin cfg2.N) : Fin 5000 → Fin 50000 := blockRow 5000 10 50000 (by norm_num) ⟨t.val, point_lt t⟩

/-- The printed index maps, decided over the grid: the input rows and the output rows are block t along the rows
    and block 0 along the columns; the weights and the bias row are always block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of X that point t loads is rows 5000·t … of X. -/
theorem input_block (c : Dev nD) (t : Fin cfg2.N) :
    (iblk2 V c 0 t : Vec Ideal S5000x128 .f32) = rowsOf (rowsAt t) (V c main_v70 : FVec Ideal ⟨2, ![50000, 128]⟩ .f32) := by
  obtain ⟨e0, e1, -⟩ := index_maps t
  funext j
  show (V c main_v70 : S50000x128.Idx → Ideal .f32) (((cfg2.win 0).blk t).view.emb j)
    = (V c main_v70 : S50000x128.Idx → Ideal .f32) (ix2 (rowsAt t (j 0)) (j 1))
  refine congrArg _ (funext fun a => Fin.ext ?_)
  match a with
  | ⟨0, _⟩ =>
    show win2_0.index t (0 : Fin 2) * 5000 + 1 * (j 0).val = 5000 * t.val + (j 0).val
    rw [e0]; omega
  | ⟨1, _⟩ =>
    show win2_0.index t (1 : Fin 2) * 128 + 1 * (j 1).val = (j 1).val
    rw [e1]; omega

/-- The block of W that every point loads is the whole of W. -/
theorem weight_block (c : Dev nD) (t : Fin cfg2.N) :
    (iblk2 V c 1 t : Vec Ideal S128x64 .f32) = (V c main_arg8 : FVec Ideal ⟨2, ![128, 64]⟩ .f32) := by
  obtain ⟨-, -, e0, e1, -⟩ := index_maps t
  funext j
  show (V c main_arg8 : S128x64.Idx → Ideal .f32) (((cfg2.win 1).blk t).view.emb j) = (V c main_arg8 : S128x64.Idx → Ideal .f32) j
  refine congrArg _ (funext fun a => Fin.ext ?_)
  match a with
  | ⟨0, _⟩ =>
    show win2_1.index t (0 : Fin 2) * 128 + 1 * (j 0).val = (j 0).val
    rw [e0]; omega
  | ⟨1, _⟩ =>
    show win2_1.index t (1 : Fin 2) * 64 + 1 * (j 1).val = (j 1).val
    rw [e1]; omega

/-- The block of B that every point loads is the whole bias row. -/
theorem bias_block (c : Dev nD) (t : Fin cfg2.N) :
    (iblk2 V c 2 t : Vec Ideal S1x64 .f32) = (V c main_v71 : FVec Ideal ⟨2, ![1, 64]⟩ .f32) := by
  obtain ⟨-, -, -, -, e0, e1, -⟩ := index_maps t
  funext j
  show (V c main_v71 : S1x64.Idx → Ideal .f32) (((cfg2.win 2).blk t).view.emb j) = (V c main_v71 : S1x64.Idx → Ideal .f32) j
  refine congrArg _ (funext fun a => Fin.ext ?_)
  match a with
  | ⟨0, _⟩ =>
    show win2_2.index t (0 : Fin 2) * 1 + 1 * (j 0).val = (j 0).val
    rw [e0]; omega
  | ⟨1, _⟩ =>
    show win2_2.index t (1 : Fin 2) * 64 + 1 * (j 1).val = (j 1).val
    rw [e1]; omega

/-- What point t writes back is block t of the layer computed on the whole arrays. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x64) zero_offsets,
    View.ld_unit_zero (S := S1x64) zero_offsets]
  rw [input_block V c t, weight_block V c t, bias_block V c t, body_rows]
  obtain ⟨-, -, -, -, -, -, e0, e1⟩ := index_maps t
  funext j
  show result V c (ix2 (rowsAt t (j 0)) (j 1)) = result V c (((cfg2.win 3).blk t).view.emb j)
  refine congrArg _ (funext fun a => Fin.ext ?_)
  match a with
  | ⟨0, _⟩ =>
    show 5000 * t.val + (j 0).val = win2_3.index t (0 : Fin 2) * 5000 + 1 * (j 0).val
    rw [e0]; omega
  | ⟨1, _⟩ =>
    show (j 1).val = win2_3.index t (1 : Fin 2) * 64 + 1 * (j 1).val
    rw [e1]; omega

/-- An index of the output array lies in point t's block iff each coordinate lies in the block's range. -/
theorem mem_block (t : Fin cfg2.N) (i : S50000x64.Idx) :
    i ∈ ((cfg2.win 3).blk t).view.set ↔
      ∀ a : Fin 2, win2_3.index t a * S5000x64.size a ≤ (i a).val ∧ (i a).val < win2_3.index t a * S5000x64.size a + S5000x64.size a := by
  show i ∈ ((View.whole main_v72).slice (win2_3.rect t)).set ↔ _
  rw [View.set_slice_whole, Rect.mem_set_unit]
  exact Iff.rfl

/-- The ten blocks cover the output: row r lies in block r / 5000. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_3 _, ?_⟩
  rw [mem_block]
  obtain ⟨-, -, -, -, -, -, e0, e1⟩ := index_maps ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]
    show (i 0).val / 5000 * 5000 ≤ (i 0).val ∧ (i 0).val < (i 0).val / 5000 * 5000 + 5000
    omega
  | ⟨1, _⟩ =>
    show win2_3.index _ (1 : Fin 2) * 64 ≤ (i 1).val ∧ (i 1).val < win2_3.index _ (1 : Fin 2) * 64 + 64
    rw [e1]; omega

/-- After the call its output array is the layer computed on the whole arrays as the call found them. -/
theorem final (c : Dev nD) : (dat2 V c).arrAt 3 cfg2.N = result V c :=
  (dat2 V c).arrAt_eq_of_cover 3 (result V c) (fun t _ => flushed_eq V c t) (covered)

/-- The same with the entry contents named: if the call finds X, W and the bias row B, it leaves max(X · W + B, 0). -/
theorem final_of (c : Dev nD) (X : FVec Ideal ⟨2, ![50000, 128]⟩ .f32) (W : FVec Ideal ⟨2, ![128, 64]⟩ .f32)
    (B : FVec Ideal ⟨2, ![1, 64]⟩ .f32) (hX : (V c main_v70 : FVec Ideal ⟨2, ![50000, 128]⟩ .f32) = X)
    (hW : (V c main_arg8 : FVec Ideal ⟨2, ![128, 64]⟩ .f32) = W) (hB : (V c main_v71 : FVec Ideal ⟨2, ![1, 64]⟩ .f32) = B) :
    (dat2 V c).arrAt 3 cfg2.N
      = relu (M := 50000) (N := 64) (by decide) (dense (M := 50000) (K := 128) (N := 64) (by decide) X W B) := by
  subst hX hW hB
  exact final V c

end Cert.KernelIdeal.Layer2

end
-- ==== Proof.KernelValue.lean ====
/-
  The idealized kernel computes the network.

  The run's fold through @main is walked once, boundary by boundary. Before the first call the buffers hold the two
  weight vectors and the first propagation step of the features; each call replaces its input rows by the dense
  layer of them (its blocks tile the array: one module per call); each stretch between calls propagates the call's
  output once more and lays the next bias as a row; the last stretch is the head. Nothing on the way writes an
  argument or a weight vector, so every step finds them as the first stretches left them. Composing the steps gives
  `model` of the launch contents of the arguments.
-/
import proofs.«145482_j13804024889640_1_alg».proof.Proof.Gen.KernelIdeal.Frame
import proofs.«145482_j13804024889640_1_alg».proof.Proof.StretchWeights
import proofs.«145482_j13804024889640_1_alg».proof.Proof.Stretches
import proofs.«145482_j13804024889640_1_alg».proof.Proof.Layer0
import proofs.«145482_j13804024889640_1_alg».proof.Proof.Layer1
import proofs.«145482_j13804024889640_1_alg».proof.Proof.Layer2

noncomputable section

namespace Cert.KernelIdeal.NetValue

open Idealize.ShloMosaic Idealize.ShloMosaic.TcCoe Idealize.SL.Sem Idealize.ShloMosaic.StableHlo
open Cert.KernelIdeal Cert.KernelIdeal.Gen Cert.GraphNet

variable (m : (ℓ : Loc nD τ sig) → Buf (Elt Ideal) ℓ) (ρ : Dev nD → PrngReg) (c : Dev nD)

/-- The out-weights of the launch graph. -/
abbrev ws : FVec Ideal Cert.ReferenceIdeal.S50000 .f32 := weight (degree (m ((c : Thread nD τ).loc main_arg1)))
/-- The in-weights of the launch graph. -/
abbrev wd : FVec Ideal Cert.ReferenceIdeal.S50000 .f32 := weight (degree (m ((c : Thread nD τ).loc main_arg2)))
/-- One propagation step over the launch graph. -/
abbrev step (x : FVec Ideal Cert.ReferenceIdeal.S50000x128 .f32) : FVec Ideal Cert.ReferenceIdeal.S50000x128 .f32 :=
  propagate x (m ((c : Thread nD τ).loc main_arg1)) (m ((c : Thread nD τ).loc main_arg2)) (ws m c) (wd m c)
/-- The first layer's output. -/
abbrev h1 : FVec Ideal Cert.ReferenceIdeal.S50000x128 .f32 :=
  dense128 (step m c (m ((c : Thread nD τ).loc main_arg0))) (m ((c : Thread nD τ).loc main_arg4)) (m ((c : Thread nD τ).loc main_arg5))
/-- The second layer's output. -/
abbrev h2 : FVec Ideal Cert.ReferenceIdeal.S50000x128 .f32 :=
  dense128 (step m c (h1 m c)) (m ((c : Thread nD τ).loc main_arg6)) (m ((c : Thread nD τ).loc main_arg7))
/-- The third layer's output. -/
abbrev h3 : FVec Ideal Cert.ReferenceIdeal.S50000x64 .f32 :=
  dense64 (step m c (h2 m c)) (m ((c : Thread nD τ).loc main_arg8)) (m ((c : Thread nD τ).loc main_arg9))

/-! ## The stretches that make the weights -/

theorem at1_arg (b : Ref sig .tc) (hb : b = main_arg0 ∨ b = main_arg1 ∨ b = main_arg2 ∨ b = main_arg4 ∨ b = main_arg5 ∨ b = main_arg6 ∨ b = main_arg7
      ∨ b = main_arg8 ∨ b = main_arg9 ∨ b = main_arg10 ∨ b = main_arg11) :
    W1 m ρ c (Proc.devRef .tc b) = m ((c : Thread nD τ).loc b) :=
  Stretches.s0_arg (W0 m ρ c) b hb

theorem at1_v8 : W1 m ρ c (Proc.devRef .tc main_v8) = Stretches.positive (degree (m ((c : Thread nD τ).loc main_arg1))) :=
  Stretches.s0_v8 (W0 m ρ c)
theorem at1_v11 : W1 m ρ c (Proc.devRef .tc main_v11) = Stretches.invRoot (degree (m ((c : Thread nD τ).loc main_arg1))) :=
  Stretches.s0_v11 (W0 m ρ c)
theorem at1_cst4 : W1 m ρ c (Proc.devRef .tc main_cst_4) = constant (F := Ideal) Cert.ReferenceIdeal.S_ .f32 0x00000000#32 :=
  Stretches.s0_cst4 (W0 m ρ c)
theorem at1_v6 : W1 m ρ c (Proc.devRef .tc main_v6) = degree (m ((c : Thread nD τ).loc main_arg2)) := Stretches.s0_v6 (W0 m ρ c)

theorem at2_arg (b : Ref sig .tc) (hb : b = main_arg0 ∨ b = main_arg1 ∨ b = main_arg2 ∨ b = main_arg4 ∨ b = main_arg5 ∨ b = main_arg6 ∨ b = main_arg7
      ∨ b = main_arg8 ∨ b = main_arg9 ∨ b = main_arg10 ∨ b = main_arg11) :
    W2 m ρ c (Proc.devRef .tc b) = m ((c : Thread nD τ).loc b) := by
  rcases hb with rfl | rfl | rfl | rfl | rfl | rfl | rfl | rfl | rfl | rfl | rfl <;>
    exact (Stretches.s1_keep (W1 m ρ c) _ (by simp)).trans (at1_arg m ρ c _ (by simp))

theorem at2_v6 : W2 m ρ c (Proc.devRef .tc main_v6) = degree (m ((c : Thread nD τ).loc main_arg2)) :=
  (Stretches.s1_keep (W1 m ρ c) main_v6 (by simp)).trans (at1_v6 m ρ c)

theorem at2_v12 : W2 m ρ c (Proc.devRef .tc main_v12) = ws m c := by
  refine (Stretches.s1_v12 (W1 m ρ c)).trans ?_
  rw [at1_v8 m ρ c, at1_v11 m ρ c, at1_cst4 m ρ c]
  exact (Stretches.weight_eq _).symm

theorem at3_arg (b : Ref sig .tc) (hb : b = main_arg0 ∨ b = main_arg1 ∨ b = main_arg2 ∨ b = main_arg4 ∨ b = main_arg5 ∨ b = main_arg6 ∨ b = main_arg7
      ∨ b = main_arg8 ∨ b = main_arg9 ∨ b = main_arg10 ∨ b = main_arg11) :
    W3 m ρ c (Proc.devRef .tc b) = m ((c : Thread nD τ).loc b) := by
  rcases hb with rfl | rfl | rfl | rfl | rfl | rfl | rfl | rfl | rfl | rfl | rfl <;>
    exact (Stretches.s2_keep (W2 m ρ c) _ (by simp)).trans (at2_arg m ρ c _ (by simp))

theorem at3_v12 : W3 m ρ c (Proc.devRef .tc main_v12) = ws m c :=
  (Stretches.s2_keep (W2 m ρ c) main_v12 (by simp)).trans (at2_v12 m ρ c)

theorem at3_v14 : W3 m ρ c (Proc.devRef .tc main_v14) = Stretches.positive (degree (m ((c : Thread nD τ).loc main_arg2))) := by
  refine (Stretches.s2_v14 (W2 m ρ c)).trans ?_
  rw [at2_v6 m ρ c]
theorem at3_v17 : W3 m ρ c (Proc.devRef .tc main_v17) = Stretches.invRoot (degree (m ((c : Thread nD τ).loc main_arg2))) := by
  refine (Stretches.s2_v17 (W2 m ρ c)).trans ?_
  rw [at2_v6 m ρ c]
theorem at3_cst7 : W3 m ρ c (Proc.devRef .tc main_cst_7) = constant (F := Ideal) Cert.ReferenceIdeal.S_ .f32 0x00000000#32 :=
  Stretches.s2_cst7 (W2 m ρ c)

theorem at4_arg (b : Ref sig .tc) (hb : b = main_arg0 ∨ b = main_arg1 ∨ b = main_arg2 ∨ b = main_arg4 ∨ b = main_arg5 ∨ b = main_arg6 ∨ b = main_arg7
      ∨ b = main_arg8 ∨ b = main_arg9 ∨ b = main_arg10 ∨ b = main_arg11) :
    W4 m ρ c (Proc.devRef .tc b) = m ((c : Thread nD τ).loc b) := by
  rcases hb with rfl | rfl | rfl | rfl | rfl | rfl | rfl | rfl | rfl | rfl | rfl <;>
    exact (Stretches.s3_keep (W3 m ρ c) _ (by simp)).trans (at3_arg m ρ c _ (by simp))

theorem at4_v12 : W4 m ρ c (Proc.devRef .tc main_v12) = ws m c :=
  (Stretches.s3_keep (W3 m ρ c) main_v12 (by simp)).trans (at3_v12 m ρ c)

theorem at4_v18 : W4 m ρ c (Proc.devRef .tc main_v18) = wd m c := by
  refine (Stretches.s3_v18 (W3 m ρ c)).trans ?_
  rw [at3_v14 m ρ c, at3_v17 m ρ c, at3_cst7 m ρ c]
  exact (Stretches.weight_eq _).symm

/-! ## At the first call's entry -/

theorem at5_arg (b : Ref sig .tc)
    (hb : b = main_arg1 ∨ b = main_arg2 ∨ b = main_arg4 ∨ b = main_arg6 ∨ b = main_arg7 ∨ b = main_arg8 ∨ b = main_arg9
      ∨ b = main_arg10 ∨ b = main_arg11) :
    W5 m ρ c (Proc.devRef .tc b) = m ((c : Thread nD τ).loc b) := by
  rcases hb with rfl | rfl | rfl | rfl | rfl | rfl | rfl | rfl | rfl <;>
    exact (Stretches.first_keep (W4 m ρ c) _ (by simp)).trans (at4_arg m ρ c _ (by simp))

theorem at5_v12 : W5 m ρ c (Proc.devRef .tc main_v12) = ws m c :=
  (Stretches.first_keep (W4 m ρ c) main_v12 (by simp)).trans (at4_v12 m ρ c)
theorem at5_v18 : W5 m ρ c (Proc.devRef .tc main_v18) = wd m c :=
  (Stretches.first_keep (W4 m ρ c) main_v18 (by simp)).trans (at4_v18 m ρ c)

theorem at5_v34 : W5 m ρ c (Proc.devRef .tc main_v34) = step m c (m ((c : Thread nD τ).loc main_arg0)) := by
  refine (Stretches.first_v34 (W4 m ρ c)).trans ?_
  rw [at4_arg m ρ c main_arg0 (by simp), at4_arg m ρ c main_arg1 (by simp), at4_arg m ρ c main_arg2 (by simp),
    at4_v12 m ρ c, at4_v18 m ρ c]

theorem at5_v35 : W5 m ρ c (Proc.devRef .tc main_v35)
    = broadcastInDim Cert.ReferenceIdeal.S1x128 ![1] Cert.ReferenceIdeal.Facts₀.bcast_S128_S1x128_1 (m ((c : Thread nD τ).loc main_arg5)) := by
  refine (Stretches.first_v35 (W4 m ρ c)).trans ?_
  rw [at4_arg m ρ c main_arg5 (by simp)]

/-! ## After the first call -/

theorem at6_v36 : W6 m ρ c (Proc.devRef .tc main_v36) = h1 m c :=
  (W6_arr m ρ c 3).trans
    (Layer0.final_of (V5 m ρ) c _ _ _ (at5_v34 m ρ c) (at5_arg m ρ c main_arg4 (by simp)) (at5_v35 m ρ c))

/-- What the first call does not write is as at its entry. -/
theorem at6_arg (b : Ref sig .tc)
    (hb : b = main_arg1 ∨ b = main_arg2 ∨ b = main_arg6 ∨ b = main_arg7 ∨ b = main_arg8 ∨ b = main_arg9
      ∨ b = main_arg10 ∨ b = main_arg11) :
    W6 m ρ c (Proc.devRef .tc b) = m ((c : Thread nD τ).loc b) := by
  rcases hb with rfl | rfl | rfl | rfl | rfl | rfl | rfl | rfl <;>
    exact (W6_of_ne m ρ c _ (by decide)).trans (at5_arg m ρ c _ (by simp))

theorem at6_v12 : W6 m ρ c (Proc.devRef .tc main_v12) = ws m c :=
  (W6_of_ne m ρ c main_v12 (by decide)).trans (at5_v12 m ρ c)
theorem at6_v18 : W6 m ρ c (Proc.devRef .tc main_v18) = wd m c :=
  (W6_of_ne m ρ c main_v18 (by decide)).trans (at5_v18 m ρ c)

/-! ## At the second call's entry -/

theorem at7_v52 : W7 m ρ c (Proc.devRef .tc main_v52) = step m c (h1 m c) := by
  refine (Stretches.mid1_v52 (W6 m ρ c)).trans ?_
  rw [at6_v36 m ρ c, at6_arg m ρ c main_arg1 (by simp), at6_arg m ρ c main_arg2 (by simp), at6_v12 m ρ c, at6_v18 m ρ c]

theorem at7_v53 : W7 m ρ c (Proc.devRef .tc main_v53)
    = broadcastInDim Cert.ReferenceIdeal.S1x128 ![1] Cert.ReferenceIdeal.Facts₀.bcast_S128_S1x128_1 (m ((c : Thread nD τ).loc main_arg7)) := by
  refine (Stretches.mid1_v53 (W6 m ρ c)).trans ?_
  rw [at6_arg m ρ c main_arg7 (by simp)]

theorem at7_arg (b : Ref sig .tc)
    (hb : b = main_arg1 ∨ b = main_arg2 ∨ b = main_arg6 ∨ b = main_arg8 ∨ b = main_arg9 ∨ b = main_arg10 ∨ b = main_arg11) :
    W7 m ρ c (Proc.devRef .tc b) = m ((c : Thread nD τ).loc b) := by
  rcases hb with rfl | rfl | rfl | rfl | rfl | rfl | rfl <;>
    exact (Stretches.mid1_keep (W6 m ρ c) _ (by simp)).trans (at6_arg m ρ c _ (by simp))

theorem at7_v12 : W7 m ρ c (Proc.devRef .tc main_v12) = ws m c :=
  (Stretches.mid1_keep (W6 m ρ c) main_v12 (by simp)).trans (at6_v12 m ρ c)
theorem at7_v18 : W7 m ρ c (Proc.devRef .tc main_v18) = wd m c :=
  (Stretches.mid1_keep (W6 m ρ c) main_v18 (by simp)).trans (at6_v18 m ρ c)

/-! ## After the second call -/

theorem at8_v54 : W8 m ρ c (Proc.devRef .tc main_v54) = h2 m c :=
  (W8_arr m ρ c 3).trans
    (Layer1.final_of (V7 m ρ) c _ _ _ (at7_v52 m ρ c) (at7_arg m ρ c main_arg6 (by simp)) (at7_v53 m ρ c))

theorem at8_arg (b : Ref sig .tc)
    (hb : b = main_arg1 ∨ b = main_arg2 ∨ b = main_arg8 ∨ b = main_arg9 ∨ b = main_arg10 ∨ b = main_arg11) :
    W8 m ρ c (Proc.devRef .tc b) = m ((c : Thread nD τ).loc b) := by
  rcases hb with rfl | rfl | rfl | rfl | rfl | rfl <;>
    exact (W8_of_ne m ρ c _ (by decide)).trans (at7_arg m ρ c _ (by simp))

theorem at8_v12 : W8 m ρ c (Proc.devRef .tc main_v12) = ws m c :=
  (W8_of_ne m ρ c main_v12 (by decide)).trans (at7_v12 m ρ c)
theorem at8_v18 : W8 m ρ c (Proc.devRef .tc main_v18) = wd m c :=
  (W8_of_ne m ρ c main_v18 (by decide)).trans (at7_v18 m ρ c)

/-! ## At the third call's entry -/

theorem at9_v70 : W9 m ρ c (Proc.devRef .tc main_v70) = step m c (h2 m c) := by
  refine (Stretches.mid2_v70 (W8 m ρ c)).trans ?_
  rw [at8_v54 m ρ c, at8_arg m ρ c main_arg1 (by simp), at8_arg m ρ c main_arg2 (by simp), at8_v12 m ρ c, at8_v18 m ρ c]

theorem at9_v71 : W9 m ρ c (Proc.devRef .tc main_v71)
    = broadcastInDim Cert.ReferenceIdeal.S1x64 ![1] Cert.ReferenceIdeal.Facts₀.bcast_S64_S1x64_1 (m ((c : Thread nD τ).loc main_arg9)) := by
  refine (Stretches.mid2_v71 (W8 m ρ c)).trans ?_
  rw [at8_arg m ρ c main_arg9 (by simp)]

theorem at9_arg (b : Ref sig .tc) (hb : b = main_arg8 ∨ b = main_arg10 ∨ b = main_arg11) :
    W9 m ρ c (Proc.devRef .tc b) = m ((c : Thread nD τ).loc b) := by
  rcases hb with rfl | rfl | rfl <;>
    exact (Stretches.mid2_keep (W8 m ρ c) _ (by simp)).trans (at8_arg m ρ c _ (by simp))

/-! ## After the third call, and the head -/

theorem at10_v72 : W10 m ρ c (Proc.devRef .tc main_v72) = h3 m c :=
  (W10_arr m ρ c 3).trans
    (Layer2.final_of (V9 m ρ) c _ _ _ (at9_v70 m ρ c) (at9_arg m ρ c main_arg8 (by simp)) (at9_v71 m ρ c))

theorem at10_arg (b : Ref sig .tc) (hb : b = main_arg10 ∨ b = main_arg11) :
    W10 m ρ c (Proc.devRef .tc b) = m ((c : Thread nD τ).loc b) := by
  rcases hb with rfl | rfl <;>
    exact (W10_of_ne m ρ c _ (by decide)).trans (at9_arg m ρ c _ (by simp))

/-- The result buffer at the run's last boundary is the network of the launch arguments. -/
theorem result_eq : W11 m ρ c (Proc.devRef .tc main_v83)
    = model (m ((c : Thread nD τ).loc main_arg0)) (m ((c : Thread nD τ).loc main_arg1)) (m ((c : Thread nD τ).loc main_arg2)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Stretches.tail_v83 (W10 m ρ c)).trans ?_
  rw [at10_v72 m ρ c, at10_arg m ρ c main_arg10 (by simp), at10_arg m ρ c main_arg11 (by simp)]
  rfl

end Cert.KernelIdeal.NetValue

end
-- ==== Proof.lean ====
/-
  A three-layer graph convolution network with a logistic head: the Pallas kernel against its jnp reference.

  Both programs count the in- and out-degrees of 50000 nodes from 800000 edges, turn them into the weights
  1/√max(d, 1) (0 at degree 0), and three times propagate the node features along the edges (scale by the
  out-weight, sum the sources' rows at each destination, scale by the in-weight) and apply max(X · W + b, 0); the
  head is 1 / (1 + exp(−(X · Wp + bp))). The kernel does the dense maps in three pallas_calls, each on ten blocks of
  5000 rows, and everything else on the host; the reference does all of it on the host and recomputes the weights
  before every layer. On the extended reals the two are the SAME function of the inputs, `Cert.GraphNet.model`, and
  no law of arithmetic is needed to see it — only that a row of X · W reads that row of X alone, so that a block of
  rows of the product is the product of the block (Proof/Layer0.lean … Layer2.lean over the reused row lemmas), and
  that the host operations of the two programs are the same operations in the same order (Proof/Stretches.lean for the
  kernel's @main, walked boundary by boundary in Proof/KernelValue.lean; Proof/RefModel.lean for the reference's).
  The finiteness precondition is not used: the equality holds for all extended-real inputs.

  The three frames are the generated ones (the reference's is its run with the result dropped); the idealization
  rewrote nothing, so `preserves` is trivial.
-/
import proofs.«145482_j13804024889640_1_alg».proof.Defs
import proofs.«145482_j13804024889640_1_alg».proof.Proof.Gen.Kernel
import proofs.«145482_j13804024889640_1_alg».proof.Proof.Gen.Kernel.Frame
import proofs.«145482_j13804024889640_1_alg».proof.Proof.Gen.KernelIdeal
import proofs.«145482_j13804024889640_1_alg».proof.Proof.Gen.KernelIdeal.Frame
import proofs.«145482_j13804024889640_1_alg».proof.Proof.Gen.ReferenceIdeal
import proofs.«145482_j13804024889640_1_alg».proof.Proof.Gen.Pre_finite_inputs
import proofs.«145482_j13804024889640_1_alg».proof.Proof.RefRun
import proofs.«145482_j13804024889640_1_alg».proof.Proof.RefModel
import proofs.«145482_j13804024889640_1_alg».proof.Proof.KernelRun
import proofs.«145482_j13804024889640_1_alg».proof.Proof.KernelValue

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- The idealized kernel runs and leaves its arguments alone: the generated frame. -/
theorem frame_ideal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network of those arguments in their result
    buffers: the kernel by walking its run's fold through @main, the reference by unfolding its run's term. -/
theorem algebraic : Cert.algebraic_KernelIdeal_ReferenceIdeal := by
  intro m ρ m' ρ' _ hagree
  refine ⟨fun c => Cert.GraphNet.model (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.NetValue.result_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, -, a4, a5, a6, a7, a8, a9, a10, a11⟩ := hagree c
    rw [Cert.ReferenceIdeal.RefValue.result_eq, a0, a1, a2, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
